-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S16384x1024 : Shape := ⟨2, ![16384, 1024]⟩
abbrev S16384 : Shape := ⟨1, ![16384]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x1024 .f32) (main_arg1 : IVec S8192 32) (main_arg2 : FVec F S16384x1024 .f32) (main_arg3 : FVec F S16384 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16384x1024 .f32 := Host.absf main_arg2
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x1024 : Shape := ⟨2, ![8192, 1024]⟩
abbrev S8192 : Shape := ⟨1, ![8192]⟩
abbrev S16384x1024 : Shape := ⟨2, ![16384, 1024]⟩
abbrev S16384 : Shape := ⟨1, ![16384]⟩
abbrev S1x16384 : Shape := ⟨2, ![1, 16384]⟩
abbrev S8192x16384 : Shape := ⟨2, ![8192, 16384]⟩
abbrev S512x1024 : Shape := ⟨2, ![512, 1024]⟩
abbrev S1024x1024 : Shape := ⟨2, ![1024, 1024]⟩
abbrev S1x1024 : Shape := ⟨2, ![1, 1024]⟩
abbrev S8192x16x1024 : Shape := ⟨3, ![8192, 16, 1024]⟩
abbrev S8192x1x1 : Shape := ⟨3, ![8192, 1, 1]⟩
abbrev S_ : Shape := ⟨0, ![]⟩
abbrev S1 : Shape := ⟨1, ![1]⟩
abbrev S1x1x1 : Shape := ⟨3, ![1, 1, 1]⟩
abbrev S8192x1 : Shape := ⟨2, ![8192, 1]⟩
abbrev S8192x1x1024 : Shape := ⟨3, ![8192, 1, 1024]⟩

abbrev nBuf : Space → Nat
  | .hbm => 31
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S16384x1024, .f32⟩
  | .hbm, ⟨3, _⟩ => ⟨S16384, .f32⟩
  | .hbm, ⟨4, _⟩ => ⟨S1x16384, .f32⟩
  | .hbm, ⟨5, _⟩ => ⟨S8192x16384, .f32⟩
  | .hbm, ⟨6, _⟩ => ⟨S8192x16x1024, .f32⟩
  | .hbm, ⟨7, _⟩ => ⟨S8192x1x1, .i32⟩
  | .hbm, ⟨8, _⟩ => ⟨S_, .i32⟩
  | .hbm, ⟨9, _⟩ => ⟨S8192x1x1, .i32⟩
  | .hbm, ⟨10, _⟩ => ⟨S8192x1x1, .i1⟩
  | .hbm, ⟨11, _⟩ => ⟨S_, .i32⟩
  | .hbm, ⟨12, _⟩ => ⟨S8192x1x1, .i32⟩
  | .hbm, ⟨13, _⟩ => ⟨S8192x1x1, .i32⟩
  | .hbm, ⟨14, _⟩ => ⟨S8192x1x1, .i32⟩
  | .hbm, ⟨15, _⟩ => ⟨S1, .i32⟩
  | .hbm, ⟨16, _⟩ => ⟨S_, .i32⟩
  | .hbm, ⟨17, _⟩ => ⟨S8192x1x1, .i32⟩
  | .hbm, ⟨18, _⟩ => ⟨S8192x1x1, .i1⟩
  | .hbm, ⟨19, _⟩ => ⟨S1x1x1, .i32⟩
  | .hbm, ⟨20, _⟩ => ⟨S8192x1x1, .i32⟩
  | .hbm, ⟨21, _⟩ => ⟨S8192x1x1, .i1⟩
  | .hbm, ⟨22, _⟩ => ⟨S8192x1x1, .i1⟩
  | .hbm, ⟨23, _⟩ => ⟨S_, .i1⟩
  | .hbm, ⟨24, _⟩ => ⟨S8192x1, .i1⟩
  | .hbm, ⟨25, _⟩ => ⟨S8192x1x1024, .f32⟩
  | .hbm, ⟨26, _⟩ => ⟨S8192x1x1024, .i1⟩
  | .hbm, ⟨27, _⟩ => ⟨S_, .f32⟩
  | .hbm, ⟨28, _⟩ => ⟨S8192x1x1024, .f32⟩
  | .hbm, ⟨29, _⟩ => ⟨S8192x1x1024, .f32⟩
  | .hbm, ⟨30, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x16384_S8192x16x1024 : S8192x16384.ShapeCasts S8192x16x1024
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  bcast_S8192x1_S8192x1x1024_0_1 : S8192x1.BroadcastsInDim S8192x1x1024 (![0, 1] : Fin 2 → Fin S8192x1x1024.rank)
  bcast_S_S8192x1x1024 : S_.BroadcastsInDim S8192x1x1024 (![] : Fin 0 → Fin S8192x1x1024.rank)
  shapeCasts_S8192x1x1024_S8192x1024 : S8192x1x1024.ShapeCasts S8192x1024
  dot_S512x1024_S1024x1024_S512x1024_1_1_0_0_n_n_wf : DotDims.WF S512x1024 S1024x1024 S512x1024 [1] [1] [0] [0] [] []
  gather_S8192x16x1024_S8192x1x1_S8192x1x1024_2_1_0_0_1_2_111024_wf : GatherDims.WF S8192x16x1024 S8192x1x1 S8192x1x1024 [2] [1] [0] [1] [0] 2 ![1, 1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x16384.size a
  hwx0_3 : ∀ i : grid0.Coords, EltTy.bits .f32 = 32 ∨ (Rect.block (s := S8192x16384) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def gather_S8192x16x1024_S8192x1x1_S8192x1x1024_2_1_0_0_1_2_111024 : GatherDims S8192x16x1024 S8192x1x1 S8192x1x1024 where
  offsetDims := [2]
  collapsedSliceDims := [1]
  operandBatchingDims := [0]
  startIndicesBatchingDims := [0]
  startIndexMap := [1]
  indexVectorDim := 2
  sliceSizes := ![1, 1, 1024]
  wf := gather_S8192x16x1024_S8192x1x1_S8192x1x1024_2_1_0_0_1_2_111024_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S16384x1024 : Shape := ⟨2, ![16384, 1024]⟩
abbrev S16384 : Shape := ⟨1, ![16384]⟩
abbrev S1024x16384 : Shape := ⟨2, ![1024, 16384]⟩
abbrev S8192x16384 : Shape := ⟨2, ![8192, 16384]⟩
abbrev S1x16384 : Shape := ⟨2, ![1, 16384]⟩
abbrev S8192x16x1024 : Shape := ⟨3, ![8192, 16, 1024]⟩
abbrev S8192x1x1 : Shape := ⟨3, ![8192, 1, 1]⟩
abbrev S_ : Shape := ⟨0, ![]⟩
abbrev S1 : Shape := ⟨1, ![1]⟩
abbrev S1x1x1 : Shape := ⟨3, ![1, 1, 1]⟩
abbrev S8192x1 : Shape := ⟨2, ![8192, 1]⟩
abbrev S8192x1x1024 : Shape := ⟨3, ![8192, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S16384x1024, .f32⟩
  | .hbm, ⟨3, _⟩ => ⟨S16384, .f32⟩
  | .hbm, ⟨4, _⟩ => ⟨S1024x16384, .f32⟩
  | .hbm, ⟨5, _⟩ => ⟨S8192x16384, .f32⟩
  | .hbm, ⟨6, _⟩ => ⟨S1x16384, .f32⟩
  | .hbm, ⟨7, _⟩ => ⟨S8192x16384, .f32⟩
  | .hbm, ⟨8, _⟩ => ⟨S8192x16384, .f32⟩
  | .hbm, ⟨9, _⟩ => ⟨S8192x16x1024, .f32⟩
  | .hbm, ⟨10, _⟩ => ⟨S8192x1x1, .i32⟩
  | .hbm, ⟨11, _⟩ => ⟨S_, .i32⟩
  | .hbm, ⟨12, _⟩ => ⟨S8192x1x1, .i32⟩
  | .hbm, ⟨13, _⟩ => ⟨S8192x1x1, .i1⟩
  | .hbm, ⟨14, _⟩ => ⟨S_, .i32⟩
  | .hbm, ⟨15, _⟩ => ⟨S8192x1x1, .i32⟩
  | .hbm, ⟨16, _⟩ => ⟨S8192x1x1, .i32⟩
  | .hbm, ⟨17, _⟩ => ⟨S8192x1x1, .i32⟩
  | .hbm, ⟨18, _⟩ => ⟨S1, .i32⟩
  | .hbm, ⟨19, _⟩ => ⟨S_, .i32⟩
  | .hbm, ⟨20, _⟩ => ⟨S8192x1x1, .i32⟩
  | .hbm, ⟨21, _⟩ => ⟨S8192x1x1, .i1⟩
  | .hbm, ⟨22, _⟩ => ⟨S1x1x1, .i32⟩
  | .hbm, ⟨23, _⟩ => ⟨S8192x1x1, .i32⟩
  | .hbm, ⟨24, _⟩ => ⟨S8192x1x1, .i1⟩
  | .hbm, ⟨25, _⟩ => ⟨S8192x1x1, .i1⟩
  | .hbm, ⟨26, _⟩ => ⟨S_, .i1⟩
  | .hbm, ⟨27, _⟩ => ⟨S8192x1, .i1⟩
  | .hbm, ⟨28, _⟩ => ⟨S8192x1x1024, .f32⟩
  | .hbm, ⟨29, _⟩ => ⟨S8192x1x1024, .i1⟩
  | .hbm, ⟨30, _⟩ => ⟨S_, .f32⟩
  | .hbm, ⟨31, _⟩ => ⟨S8192x1x1024, .f32⟩
  | .hbm, ⟨32, _⟩ => ⟨S8192x1x1024, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]

class Facts₀ : Prop where
  transposes_S16384x1024_S1024x16384_1_0 : S16384x1024.Transposes [1, 0] S1024x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  shapeCasts_S8192x16384_S8192x16x1024 : S8192x16384.ShapeCasts S8192x16x1024
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  bcast_S8192x1_S8192x1x1024_0_1 : S8192x1.BroadcastsInDim S8192x1x1024 (![0, 1] : Fin 2 → Fin S8192x1x1024.rank)
  bcast_S_S8192x1x1024 : S_.BroadcastsInDim S8192x1x1024 (![] : Fin 0 → Fin S8192x1x1024.rank)
  shapeCasts_S8192x1x1024_S8192x1024 : S8192x1x1024.ShapeCasts S8192x1024
  dot_S8192x1024_S1024x16384_S8192x16384_1_0_0_1_n_n_wf : DotDims.WF S8192x1024 S1024x16384 S8192x16384 [1] [0] [0] [1] [] []
  gather_S8192x16x1024_S8192x1x1_S8192x1x1024_2_1_0_0_1_2_111024_wf : GatherDims.WF S8192x16x1024 S8192x1x1 S8192x1x1024 [2] [1] [0] [1] [0] 2 ![1, 1, 1024]

variable [Facts₀]

def dot_S8192x1024_S1024x16384_S8192x16384_1_0_0_1_n_n : DotDims S8192x1024 S1024x16384 S8192x16384 where
  lhsContracting := [1]
  rhsContracting := [0]
  lhsNonContracting := [0]
  rhsNonContracting := [1]
  lhsBatch := []
  rhsBatch := []
  wf := dot_S8192x1024_S1024x16384_S8192x16384_1_0_0_1_n_n_wf
def gather_S8192x16x1024_S8192x1x1_S8192x1x1024_2_1_0_0_1_2_111024 : GatherDims S8192x16x1024 S8192x1x1 S8192x1x1024 where
  offsetDims := [2]
  collapsedSliceDims := [1]
  operandBatchingDims := [0]
  startIndicesBatchingDims := [0]
  startIndexMap := [1]
  indexVectorDim := 2
  sliceSizes := ![1, 1, 1024]
  wf := gather_S8192x16x1024_S8192x1x1_S8192x1x1024_2_1_0_0_1_2_111024_wf

class Facts : Prop extends Facts₀ where

variable [Facts]
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.Stacked.lean ====
/-
  The stacked linear layer, entry by entry, over the extended reals.

  Sixteen experts' weight matrices are stacked row-wise into one matrix `W` of 16384 rows and 1024 columns, their
  biases into one vector `b` of 16384 entries. For a batch `x` of 8192 rows the stacked layer is the 8192 by 16384
  matrix whose entry in row `r` and column `n` is the inner product of row `r` of `x` with row `n` of `W`, plus `b n`:

      stacked x W b (r, n) = Σ_{k < 1024} x(r, k) · W(n, k) + b(n).

  Both programs compute exactly this sum, term by term in the same order of factors, so nothing beyond the
  definition is needed to join them: no reordering of the sum, no distributivity, hence no finiteness of the inputs.
-/
import Idealize.ShloMosaic.PureOps.Ideal
import Idealize.ShloMosaic.Lib.ValueIdx

noncomputable section

open scoped BigOperators

namespace Cert.Stacked

open Idealize.ShloMosaic Idealize.ShloMosaic.ValueIdx

/-- The stacked layer: entry `(r, n)` is the inner product of row `r` of `x` with row `n` of `W`, plus `b n`. -/
def stacked (x : FVec Ideal ⟨2, ![8192, 1024]⟩ .f32) (W : FVec Ideal ⟨2, ![16384, 1024]⟩ .f32)
    (b : FVec Ideal ⟨1, ![16384]⟩ .f32) : FVec Ideal ⟨2, ![8192, 16384]⟩ .f32 :=
  fun i => (∑ k : Fin 1024, x (ix2 (i 0) k) * W (ix2 (i 1) k)) + b (ix1 (i 1))

/-- The same entry with the index written by its two coordinates. -/
theorem stacked_apply (x : FVec Ideal ⟨2, ![8192, 1024]⟩ .f32) (W : FVec Ideal ⟨2, ![16384, 1024]⟩ .f32)
    (b : FVec Ideal ⟨1, ![16384]⟩ .f32) (r : Fin 8192) (n : Fin 16384) :
    stacked x W b (ix2 r n) = (∑ k : Fin 1024, x (ix2 r k) * W (ix2 n k)) + b (ix1 n) := rfl

end Cert.Stacked

end
-- ==== Proof.Payload.lean ====
/-
  What the kernel body computes for one block, entry by entry.

  At a grid point the body holds a block of 512 rows of `x`, a block of 1024 rows of `W` (one expert's matrix) and
  the matching 1024 entries of `b` as one row. It multiplies the first block by the transpose of the second —
  contracting both blocks' columns, into a zero accumulator — and adds the bias row to every row of the product. The
  change of float format before the product is the identity over the extended reals. So at row `p` and column `q` of
  the block the body leaves  Σ_{k < 1024} x(p, k) · W(q, k) + b(0, q).
-/
import proofs.«146983_j15771119911329_1_alg».proof.Proof.Gen.KernelIdeal.Skeleton
import proofs.«146983_j15771119911329_1_alg».proof.Proof.LibMatmulNT
import proofs.«146983_j15771119911329_1_alg».proof.Proof.Stacked
import Idealize.ShloMosaic.Lib.ValueIdx
import Idealize.ShloMosaic.Lib.ValueLayout
import Idealize.ShloMosaic.Lib.Pipeline.Value

noncomputable section

open scoped BigOperators

namespace Cert.Payload

open Idealize.ShloMosaic Idealize.ShloMosaic.ValueIdx Cert.KernelIdeal Cert.KernelIdeal.Gen

/-- The block the body stores, at row `p` and column `q`: the inner product of row `p` of the `x` block with row `q`
    of the `W` block, plus the bias row's entry `q`. -/
theorem payload_apply (x0 : FVec Ideal S512x1024 .f32) (x1 : FVec Ideal S1024x1024 .f32) (x2 : FVec Ideal S1x1024 .f32)
    (p : Fin 512) (q : Fin 1024) :
    k0_pay1 (F := Ideal) x0 x1 x2 (ix2 p q) = (∑ k : Fin 1024, x0 (ix2 p k) * x1 (ix2 q k)) + x2 (ix2 (0 : Fin 1) q) := by
  unfold k0_pay1
  refine (addf_apply _ _ (ix2 p q)).trans ?_
  refine congrArg₂ (· + ·) ?_ ?_
  · exact Cert.LibMatmulNT.matmul_nt_zero_apply (M := 512) (K := 1024) (N := 1024)
      dot_S512x1024_S1024x1024_S512x1024_1_1_0_0_n_n rfl none
      (truncf .bf16 x0 bitsLt_bf16_f32) (truncf .bf16 x1 bitsLt_bf16_f32) p q
  · rw [shapeCast_self]
    exact broadcastTo_1b_ab_apply x2 broadcasts_S1x1024_S512x1024 p q

/-- If row `p` of the `x` block is row `r` of `x`, row `q` of the `W` block is row `n` of `W`, and the bias row's entry `q`
    is `b n`, then the block's entry `(p, q)` is the stacked layer's entry `(r, n)`: the two sums agree term by term. -/
theorem point_eq (X : FVec Ideal ⟨2, ![8192, 1024]⟩ .f32) (Wm : FVec Ideal ⟨2, ![16384, 1024]⟩ .f32)
    (b : FVec Ideal ⟨1, ![16384]⟩ .f32)
    (x0 : FVec Ideal S512x1024 .f32) (x1 : FVec Ideal S1024x1024 .f32) (x2 : FVec Ideal S1x1024 .f32)
    (r : Fin 8192) (n : Fin 16384) (p : Fin 512) (q : Fin 1024)
    (h0 : ∀ k : Fin 1024, x0 (ix2 p k) = X (ix2 r k)) (h1 : ∀ k : Fin 1024, x1 (ix2 q k) = Wm (ix2 n k))
    (h2 : x2 (ix2 (0 : Fin 1) q) = b (ix1 n)) :
    k0_pay1 (F := Ideal) x0 x1 x2 (ix2 p q) = Cert.Stacked.stacked X Wm b (ix2 r n) := by
  rw [payload_apply, Cert.Stacked.stacked_apply, h2]
  exact congrArg (· + b (ix1 n)) (Finset.sum_congr rfl fun k _ => by rw [h0 k, h1 k])

end Cert.Payload

end
-- ==== Proof.Blocks.lean ====
/-
  From the blocks the kernel writes to the whole stacked matrix.

  The grid has 16 by 16 points. Point `(i, j)` holds rows `512 i … 512 i + 511` of `x`, rows `1024 j … 1024 j + 1023`
  of `W` (expert `j`'s matrix), entries `1024 j … 1024 j + 1023` of the bias laid out as one row, and writes back the
  512 by 1024 block of the output at block position `(i, j)`. An element `(p, q)` of that block sits at row
  `512 i + p` and column `1024 j + q` of the output, and by the payload's formula it is the stacked layer's entry there.
  Every entry `(r, n)` of the output lies in the block of the point `(r / 512, n / 1024)`, so after the run the output
  array is the stacked layer of the arguments.
-/
import proofs.«146983_j15771119911329_1_alg».proof.Proof.Gen.KernelIdeal.Frame
import proofs.«146983_j15771119911329_1_alg».proof.Proof.Payload
import proofs.«146983_j15771119911329_1_alg».proof.Proof.Stacked
import Idealize.ShloMosaic.Lib.Pipeline.Value
import Idealize.ShloMosaic.Lib.ValueLayout
import Idealize.ShloMosaic.Lib.StableHlo.Run

noncomputable section

namespace Cert.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Stacked

variable (m : (ℓ : Loc nD τ sig) → Buf (Elt Ideal) ℓ) (ρ : Dev nD → PrngReg)

theorem zero_offsets : (![0, 0] : Fin 2 → Nat) = fun _ => 0 := funext fun a => by fin_cases a <;> rfl

/-- How the four windows' block positions are related at every grid point: the `x` block's row position and the `W`
    block's row position are the output block's row and column positions, the bias row's column position is the output
    block's column position, every other position is zero, and the output block's positions are below 16. -/
theorem positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 15 :=
  (by decide +kernel : ∀ t : Fin grid0.N, _)

/-- Every block position of the output is some grid point's. -/
theorem positions_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-- The bias as the kernel finds it: the vector `b` laid out as the one row of a 1 by 16384 matrix. -/
theorem bias_row (c : Dev nD) :
    V m c main_v0 = shapeCast S1x16384 (m ((c : Thread nD τ).loc main_arg3)) shapeCasts_S16384_S1x16384 := by
  show StableHlo.after hostOps0 (fun b => m (c, b)) (Proc.devRef .tc main_v0) = _
  after_results
  rfl

/-- Row `p` of the `x` block at a point is row `512 i + p` of `x`, `i` the output block's row position. -/
theorem x_block (c : Dev nD) (t : Fin cfg0.N) (p : Fin 512) (k : Fin 1024) (r : Fin 8192)
    (hr : r.val = win0_3.index t (0 : Fin 2) * 512 + p.val) :
    iblk m c 0 t (ix2 p k) = m ((c : Thread nD τ).loc main_arg0) (ix2 r k) := by
  obtain ⟨e0, e1, -⟩ := positions t
  rw [← V_main_arg0 m c]
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Row `q` of the `W` block at a point is row `1024 j + q` of `W`, `j` the output block's column position. -/
theorem w_block (c : Dev nD) (t : Fin cfg0.N) (q : Fin 1024) (k : Fin 1024) (n : Fin 16384)
    (hn : n.val = win0_3.index t (1 : Fin 2) * 1024 + q.val) :
    iblk m c 1 t (ix2 q k) = m ((c : Thread nD τ).loc main_arg2) (ix2 n k) := by
  obtain ⟨-, -, e0, e1, -⟩ := positions t
  rw [← V_main_arg2 m c]
  show V m c main_arg2 (((cfg0.win 1).blk t).view.emb (ix2 q k)) = V m c main_arg2 (ix2 n k)
  refine congrArg (V m c main_arg2) (funext fun a => Fin.ext ?_)
  match a with
  | ⟨0, _⟩ => show win0_1.index t (0 : Fin 2) * 1024 + 1 * q.val = n.val; omega
  | ⟨1, _⟩ => show win0_1.index t (1 : Fin 2) * 1024 + 1 * k.val = k.val; omega

/-- Entry `q` of the bias row at a point is `b (1024 j + q)`. -/
theorem b_block (c : Dev nD) (t : Fin cfg0.N) (q : Fin 1024) (n : Fin 16384)
    (hn : n.val = win0_3.index t (1 : Fin 2) * 1024 + q.val) :
    iblk m c 2 t (ix2 (0 : Fin 1) q) = m ((c : Thread nD τ).loc main_arg3) (ix1 n) := by
  obtain ⟨-, -, -, -, e0, e1, -⟩ := positions t
  have hrow : V m c main_v0 (ix2 (0 : Fin 1) n) = m ((c : Thread nD τ).loc main_arg3) (ix1 n) := by
    rw [bias_row]
    exact shapeCast_a_1a_apply _ _ (0 : Fin 1) n
  rw [← hrow]
  show V m c main_v0 (((cfg0.win 2).blk t).view.emb (ix2 (0 : Fin 1) q)) = V m c main_v0 (ix2 (0 : Fin 1) n)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

/-- The stacked layer of the three float arguments as launched. -/
abbrev result (c : Dev nD) : FVec Ideal ⟨2, ![8192, 16384]⟩ .f32 :=
  stacked (m ((c : Thread nD τ).loc main_arg0)) (m ((c : Thread nD τ).loc main_arg2)) (m ((c : Thread nD τ).loc main_arg3))

/-- What a point writes back is its block of the stacked layer. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zero_offsets]
  simp only [View.ld_unit_zero (S := S512x1024) zero_offsets, View.ld_unit_zero (S := S1024x1024) zero_offsets,
    View.ld_unit_zero (S := S1x1024) zero_offsets]
  funext j
  obtain ⟨p, q, rfl⟩ : ∃ (p : Fin 512) (q : Fin 1024), j = ix2 p q := ⟨j 0, j 1, eq_ix2 j⟩
  obtain ⟨-, -, -, -, -, -, b0, b1⟩ := positions t
  have hp : p.val < 512 := p.isLt
  have hq : q.val < 1024 := q.isLt
  show k0_pay1 (F := Ideal) (iblk m c 0 t) (iblk m c 1 t) (iblk m c 2 t) (ix2 p q)
    = result m c (((cfg0.win 3).blk t).view.emb (ix2 p q))
  have hemb : ((cfg0.win 3).blk t).view.emb (ix2 p q)
      = ix2 (⟨win0_3.index t (0 : Fin 2) * 512 + p.val, by omega⟩ : Fin 8192)
          (⟨win0_3.index t (1 : Fin 2) * 1024 + q.val, by omega⟩ : Fin 16384) :=
    funext fun a => Fin.ext (by
      match a with
      | ⟨0, _⟩ => show win0_3.index t (0 : Fin 2) * 512 + 1 * p.val = win0_3.index t (0 : Fin 2) * 512 + p.val; omega
      | ⟨1, _⟩ => show win0_3.index t (1 : Fin 2) * 1024 + 1 * q.val = win0_3.index t (1 : Fin 2) * 1024 + q.val; omega)
  rw [hemb]
  exact Cert.Payload.point_eq _ _ _ (iblk m c 0 t) (iblk m c 1 t) (iblk m c 2 t) _ _ p q
    (fun k => x_block m c t p k _ rfl) (fun k => w_block m c t q k _ rfl) (b_block m c t q _ rfl)

/-- An entry of the output is in a point's block iff each coordinate is in the block's range on its axis. -/
theorem mem_block (t : Fin cfg0.N) (i : S8192x16384.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every entry `(r, n)` of the output is in the block of the point at position `(r / 512, n / 1024)`. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := positions_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After the run the output array is the stacked layer of the arguments. -/
theorem final (c : Dev nD) : (dats m 0 c).arrAt 3 cfg0.N = result m c :=
  (dats m 0 c).arrAt_eq_of_cover 3 (result m c) (fun t _ => flushed_eq m c t) covered

end Cert.Blocks

end
-- ==== Proof.Select.lean ====
/-
  The per-sample selection both programs apply to the stacked matrix.

  The stacked 8192 by 16384 matrix is read as 8192 samples by 16 experts by 1024 features. Each sample carries an
  integer expert index; a negative index is wrapped once by adding 16, and the sample's 1024 features of that expert are
  gathered (the gather clamps the index into range). A sample whose wrapped index is outside 0 … 15 gets a fixed
  not-a-number word in all its features instead. The result is the 8192 by 1024 matrix of the selected features.

  Both programs apply exactly these operations, in this order, to their stacked matrix and the same index vector. So the
  selection is carried as ONE function of the stacked matrix and the index vector and never opened: equal stacked
  matrices give equal results.
-/
import proofs.«146983_j15771119911329_1_alg».proof.Proof.Gen.ReferenceIdeal
import Idealize.ShloMosaic.PureOps.Ideal

noncomputable section

namespace Cert.Select

open Idealize.ShloMosaic Cert.ReferenceIdeal Cert.ReferenceIdeal.Gen

/-- Each sample's expert index as an 8192 by 1 by 1 array. -/
def column (idx : IVec S8192 32) : IVec S8192x1x1 32 :=
  broadcastInDim S8192x1x1 ![0] bcast_S8192_S8192x1x1_0 idx

/-- The index with a negative value wrapped once by 16. -/
def wrapped (idx : IVec S8192 32) : IVec S8192x1x1 32 :=
  select (cmpi .slt (column idx) (broadcastInDim S8192x1x1 ![] bcast_S_S8192x1x1 (constantI S_ 32 0#32)))
    (addi (column idx) (broadcastInDim S8192x1x1 ![] bcast_S_S8192x1x1 (constantI S_ 32 16#32)))
    (column idx)

/-- Whether a sample's wrapped index lies in 0 … 15, one bit per sample. -/
def inRange (idx : IVec S8192 32) : IVec S8192x1 1 :=
  Host.reduce IntOp.andi
    (andi (cmpi .sge (wrapped idx) (broadcastInDim S8192x1x1 ![] bcast_S_S8192x1x1 (constantI S_ 32 0#32)))
      (cmpi .sle (wrapped idx) (broadcastInDim S8192x1x1 ![0, 1, 2] bcast_S1x1x1_S8192x1x1_0_1_2
        (broadcastInDim S1x1x1 ![2] bcast_S1_S1x1x1_2 (constantI S1 32 15#32)))))
    (constantI S_ 1 1#1) reducesTo_S8192x1x1_S8192x1_d2 h_S_

/-- The selection: of the stacked matrix read as samples by experts by features, each sample's features of its
    expert, or the fixed not-a-number word where the index is out of range. -/
def pick (s : FVec Ideal S8192x16384 .f32) (idx : IVec S8192 32) : FVec Ideal S8192x1024 .f32 :=
  shapeCast _
    (select (broadcastInDim S8192x1x1024 ![0, 1] bcast_S8192x1_S8192x1x1024_0_1 (inRange idx))
      (Host.gather gather_S8192x16x1024_S8192x1x1_S8192x1x1024_2_1_0_0_1_2_111024
        (shapeCast _ s shapeCasts_S8192x16384_S8192x16x1024) (wrapped idx))
      (broadcastInDim S8192x1x1024 ![] bcast_S_S8192x1x1024 (constant (F := Ideal) S_ .f32 0x7FC00000#32)))
    shapeCasts_S8192x1x1024_S8192x1024

end Cert.Select

end
-- ==== Proof.KernelValue.lean ====
/-
  The kernel program's result, named.

  After the kernel the output array holds the stacked layer of the arguments. The lines after it read that array as
  samples by experts by features, spread the index vector into a column, and apply the selection; none of them writes
  an argument or the output array. So the result buffer ends at the selection of the stacked layer, and the
  arguments end as launched.
-/
import proofs.«146983_j15771119911329_1_alg».proof.Proof.Gen.KernelIdeal.Frame
import proofs.«146983_j15771119911329_1_alg».proof.Proof.Blocks
import proofs.«146983_j15771119911329_1_alg».proof.Proof.Select
import Idealize.ShloMosaic.Lib.StableHlo.Run

noncomputable section

namespace Cert.KernelValue

open Idealize.ShloMosaic Idealize.ShloMosaic.TcCoe Idealize.SL.Sem
open Idealize.ShloMosaic.Pipeline (Dat)
open Cert.KernelIdeal Cert.KernelIdeal.Gen Cert.Stacked Cert.Select Cert.Blocks

variable (m : (ℓ : Loc nD τ sig) → Buf (Elt Ideal) ℓ) (ρ : Dev nD → PrngReg)

set_option maxHeartbeats 2000000 in
/-- What the lines after the kernel leave in the result buffer: the selection applied to the output array (the stacked
    layer) and to the index vector as launched. -/
theorem tail_value (c : Dev nD) :
    Pipeline.afterTail₀ cfgs (dats m) 0 (V0 m) [hostOps1, hostOps1_1, hostOps1_2] c main_v5
      = pick (result m c) (m ((c : Thread nD τ).loc main_arg1)) := by
  unfold Pipeline.afterTail₀
  have h1 : Pipeline.withArrays spec0 c (V0 m c) (fun w => (dats m 0 c).arrAt w cfg0.N) (Proc.devRef .tc main_v1)
      = result m c :=
    (Pipeline.withArrays_arr spec0 launch0.win.arr_inj c (V0 m c) (fun w => (dats m 0 c).arrAt w cfg0.N) 3).trans
      (final m c)
  have h2 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1
      (by exact (by decide : ∀ w, Pipeline.arrRef spec0 w ≠ main_arg1))).trans (V_main_arg1 m c)
  refine Eq.trans ?_ (congrArg₂ pick h1 h2)
  generalize Pipeline.withArrays spec0 c (V0 m c) (fun w => (dats m 0 c).arrAt w cfg0.N) = contents
  simp only [hostOps1, hostOps1_1, hostOps1_2, List.flatten_cons, List.flatten_nil, List.append_nil, List.cons_append,
    List.nil_append]
  after_results
  rfl

/-- Every execution of the kernel program ends with its result at the selection of the stacked layer of its
    arguments, and its arguments unchanged. -/
theorem run : θ_run defs (onTc (τ := τ) (main (F := Ideal))) ⟨m, fun _ => 0, ρ⟩ fun r => ∀ c : Dev nD,
      r.2.mem ((c.tc : Thread nD τ).loc main_v5)
        = pick (stacked (m ((c.tc : Thread nD τ).loc main_arg0)) (m ((c.tc : Thread nD τ).loc main_arg2))
            (m ((c.tc : Thread nD τ).loc main_arg3))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelValue

end
-- ==== Proof.RefStacked.lean ====
/-
  The reference's stacked value is the stacked layer.

  The reference transposes `W` to 1024 by 16384, multiplies `x` by it contracting `x`'s columns with the transposed
  matrix's rows, places `b` as the one row of a 1 by 16384 matrix, spreads that row over the 8192 rows and adds. At entry
  `(r, n)` the product is Σ_k x(r, k) · Wᵀ(k, n), and Wᵀ(k, n) is W(n, k); the spread row reads b(n). That is the stacked
  layer's entry, with the factors in the same order.
-/
import proofs.«146983_j15771119911329_1_alg».proof.Proof.Gen.ReferenceIdeal.Read
import proofs.«146983_j15771119911329_1_alg».proof.Proof.Stacked

noncomputable section

open scoped BigOperators

namespace Cert.RefStacked

open Idealize.ShloMosaic Idealize.ShloMosaic.ValueIdx Cert.ReferenceIdeal Cert.ReferenceIdeal.Read Cert.Stacked

/-- The left factor of the product's `k`-th term at an entry sits in the entry's row of `x`, column `k`. -/
theorem left_index (i : S8192x16384.Idx) (k : Fin 1024) : lidx_main_v1 i k = ix2 (i 0) k :=
  funext fun a => Fin.ext (by
    match a with
    | ⟨0, _⟩ => rfl
    | ⟨1, _⟩ => rfl)

/-- The right factor, read through the transpose, sits in row `n` of `W` (the entry's column), column `k`. -/
theorem right_index (i : S8192x16384.Idx) (k : Fin 1024) : idx_main_v0 (ridx_main_v1 i k) = ix2 (i 1) k :=
  funext fun a => Fin.ext (by
    match a with
    | ⟨0, _⟩ => rfl
    | ⟨1, _⟩ => rfl)

/-- The bias, read through the row placement and the spread over the rows, sits at the entry's column. -/
theorem bias_index (i : S8192x16384.Idx) : idx_main_v2 (idx_main_v3 i) = ix1 (i 1) :=
  funext fun a => Fin.ext (by
    match a with
    | ⟨0, _⟩ => rfl)

/-- The reference's sum of product and spread bias is the stacked layer of its three float arguments. -/
theorem ref_stacked (x : FVec Ideal ⟨2, ![8192, 1024]⟩ .f32) (W : FVec Ideal ⟨2, ![16384, 1024]⟩ .f32)
    (b : FVec Ideal ⟨1, ![16384]⟩ .f32) : val_main_v4 (F := Ideal) x W b = stacked x W b := by
  funext i
  rw [val_main_v4_apply, val_main_v1_apply, val_main_v3_apply, val_main_v2_apply]
  simp only [val_main_v0_apply, left_index, right_index, bias_index]
  rfl

end Cert.RefStacked

end
-- ==== Proof.RefValue.lean ====
/-
  The reference's result, named.

  The reference computes its stacked matrix (the product with the transposed weights plus the spread bias) and applies
  the selection to it. Its stacked matrix is the stacked layer of its float arguments, so its result is the selection
  of the stacked layer.
-/
import proofs.«146983_j15771119911329_1_alg».proof.Proof.Gen.ReferenceIdeal.Run
import proofs.«146983_j15771119911329_1_alg».proof.Proof.Gen.ReferenceIdeal.Read
import proofs.«146983_j15771119911329_1_alg».proof.Proof.RefStacked
import proofs.«146983_j15771119911329_1_alg».proof.Proof.Select

noncomputable section

namespace Cert.RefValue

open Idealize.ShloMosaic Idealize.ShloMosaic.TcCoe Idealize.SL.Sem
open Cert.ReferenceIdeal Cert.ReferenceIdeal.Gen Cert.Stacked Cert.Select

variable (m : (ℓ : Loc nD τ sig) → Buf (Elt Ideal) ℓ) (ρ : Dev nD → PrngReg)

/-- Every execution of the reference ends with its result at the selection of the stacked layer of its arguments, and
    its arguments unchanged. -/
theorem run : θ_run defs (onTc (τ := τ) (main (F := Ideal))) ⟨m, fun _ => 0, ρ⟩ fun r => ∀ c : Dev nD,
      r.2.mem ((c.tc : Thread nD τ).loc main_v8)
        = pick (stacked (m ((c.tc : Thread nD τ).loc main_arg0)) (m ((c.tc : Thread nD τ).loc main_arg2))
            (m ((c.tc : Thread nD τ).loc main_arg3))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      rw [← Cert.RefStacked.ref_stacked]
      rfl), (h c).2⟩) (Cert.ReferenceIdeal.Value.run (F := Ideal) m ρ)

end Cert.RefValue

end
-- ==== Proof.lean ====
/-
  The stacked linear layer with per-sample expert selection: the kernel program against its reference.

  Both programs take a batch `x` (8192 by 1024), one expert index per sample, sixteen experts' weights stacked row-wise
  into `W` (16384 by 1024) and their biases stacked into `b` (16384). Both first form the stacked layer

      stacked(r, n) = Σ_{k < 1024} x(r, k) · W(n, k) + b(n),

  and then select, for each sample, the 1024 features of its expert.

  The kernel program computes the stacked layer block by block on a 16 by 16 grid: a point multiplies 512 rows of `x`
  by the transpose of one expert's 1024 rows of `W`, contracting the 1024 columns in one step into a zero accumulator,
  and adds that expert's bias row. The reference transposes `W`, multiplies and adds the spread bias. Over the extended
  reals the kernel's change of float format is the identity, and at every entry the two programs form the same sum of
  the same products in the same order, so they agree entry by entry by the definition alone: nothing is reordered or
  distributed, and the finiteness of the inputs is not used. The selection is the same chain of operations in both
  programs; it is carried as one function of the stacked matrix and the index vector and never opened.

  The three frames are the generated frame runs (the reference's is its generated run with the result dropped); the
  idealization rewrote no operation, so there is nothing to preserve.
-/
import proofs.«146983_j15771119911329_1_alg».proof.Defs
import proofs.«146983_j15771119911329_1_alg».proof.Proof.Gen.Kernel
import proofs.«146983_j15771119911329_1_alg».proof.Proof.Gen.Kernel.Skeleton
import proofs.«146983_j15771119911329_1_alg».proof.Proof.Gen.Kernel.Launch
import proofs.«146983_j15771119911329_1_alg».proof.Proof.Gen.Kernel.Points
import proofs.«146983_j15771119911329_1_alg».proof.Proof.Gen.Kernel.Frame
import proofs.«146983_j15771119911329_1_alg».proof.Proof.Gen.KernelIdeal
import proofs.«146983_j15771119911329_1_alg».proof.Proof.Gen.KernelIdeal.Skeleton
import proofs.«146983_j15771119911329_1_alg».proof.Proof.Gen.KernelIdeal.Launch
import proofs.«146983_j15771119911329_1_alg».proof.Proof.Gen.KernelIdeal.Points
import proofs.«146983_j15771119911329_1_alg».proof.Proof.Gen.KernelIdeal.Frame
import proofs.«146983_j15771119911329_1_alg».proof.Proof.Gen.ReferenceIdeal
import proofs.«146983_j15771119911329_1_alg».proof.Proof.Gen.ReferenceIdeal.Run
import proofs.«146983_j15771119911329_1_alg».proof.Proof.Gen.ReferenceIdeal.Read
import proofs.«146983_j15771119911329_1_alg».proof.Proof.Gen.Pre_finite_inputs
import Idealize.ShloMosaic.Adequacy
import Idealize.ShloMosaic.Init
import proofs.«146983_j15771119911329_1_alg».proof.Proof.KernelValue
import proofs.«146983_j15771119911329_1_alg».proof.Proof.RefValue

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the selection of the stacked layer of those
    arguments: the kernel program by its blocks covering the stacked matrix, the reference by its product and bias
    read entry by entry. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
